-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x100x512 : Shape := ⟨3, ![8, 100, 512]⟩
abbrev S500x512 : Shape := ⟨2, ![500, 512]⟩
abbrev S500 : Shape := ⟨1, ![500]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x100x512 : S_.BroadcastsInDim S8x100x512 (![] : Fin 0 → Fin S8x100x512.rank)
  reducesTo_S8x100x512_S_d0_1_2 : S8x100x512.ReducesTo [0, 1, 2] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part1 {F : FTy → Type} [FloatOps F] (main_v13 : IVec S_ 1) (main_v16 : IVec S500 1) : IVec S_ 1 :=
  let main_c_5 : IVec S_ 1 := constantI S_ 1 1#1
  let main_v17 : IVec S_ 1 := (fun x v => Host.reduce IntOp.andi x v reducesTo_S500_S_d0 h_S_) main_v16 main_c_5
  let main_v18 : IVec S_ 1 := andi main_v13 main_v17
  main_v18

def fn {F : FTy → Type} [FloatOps F] (main_arg0 : FVec F S8x200x512 .f32) (main_arg1 : FVec F S8x100x512 .f32) (main_arg2 : FVec F S500x512 .f32) (main_arg3 : FVec F S500 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x100x512 .f32 := Host.absf main_arg1
  let main_cst_0 : FVec F S_ .f32 := constant S_ .f32 0x7F800000#32
  let main_v5 : FVec F S8x100x512 .f32 := broadcastInDim S8x100x512 ![] bcast_S_S8x100x512 main_cst_0
  let main_v6 : IVec S8x100x512 1 := cmpf .olt main_v4 main_v5
  let main_c_1 : IVec S_ 1 := constantI S_ 1 1#1
  let main_v7 : IVec S_ 1 := (fun x v => Host.reduce IntOp.andi x v reducesTo_S8x100x512_S_d0_1_2 h_S_) main_v6 main_c_1
  let main_v8 : IVec S_ 1 := andi main_v3 main_v7
  let main_v9 : FVec F S500x512 .f32 := Host.absf main_arg2
  let main_cst_2 : FVec F S_ .f32 := constant S_ .f32 0x7F800000#32
  let main_v10 : FVec F S500x512 .f32 := broadcastInDim S500x512 ![] bcast_S_S500x512 main_cst_2
  let main_v11 : IVec S500x512 1 := cmpf .olt main_v9 main_v10
  let main_c_3 : IVec S_ 1 := constantI S_ 1 1#1
  let main_v12 : IVec S_ 1 := (fun x v => Host.reduce IntOp.andi x v reducesTo_S500x512_S_d0_1 h_S_) main_v11 main_c_3
  let main_v13 : IVec S_ 1 := andi main_v8 main_v12
  let main_v14 : FVec F S500 .f32 := Host.absf main_arg3
  let main_cst_4 : FVec F S_ .f32 := constant S_ .f32 0x7F800000#32
  let main_v15 : FVec F S500 .f32 := broadcastInDim S500 ![] bcast_S_S500 main_cst_4
  let main_v16 : IVec S500 1 := cmpf .olt main_v14 main_v15
  fn_part1 (F := F) main_v13 main_v16
-- ==== Kernel.lean ====
abbrev S8x200x512 : Shape := ⟨3, ![8, 200, 512]⟩
abbrev S8x100x512 : Shape := ⟨3, ![8, 100, 512]⟩
abbrev S500x512 : Shape := ⟨2, ![500, 512]⟩
abbrev S500 : Shape := ⟨1, ![500]⟩
abbrev S_ : Shape := ⟨0, ![]⟩
abbrev S8x104x512 : Shape := ⟨3, ![8, 104, 512]⟩
abbrev S512x500 : Shape := ⟨2, ![512, 500]⟩
abbrev S1x500 : Shape := ⟨2, ![1, 500]⟩
abbrev S8x200x100x500 : Shape := ⟨4, ![8, 200, 100, 500]⟩
abbrev S1x40x512 : Shape := ⟨3, ![1, 40, 512]⟩
abbrev S1x104x512 : Shape := ⟨3, ![1, 104, 512]⟩
abbrev S1x40x100x500 : Shape := ⟨4, ![1, 40, 100, 500]⟩
abbrev S104x512 : Shape := ⟨2, ![104, 512]⟩
abbrev S1x8x512 : Shape := ⟨3, ![1, 8, 512]⟩
abbrev S8x512 : Shape := ⟨2, ![8, 512]⟩
abbrev S8x1x512 : Shape := ⟨3, ![8, 1, 512]⟩
abbrev S832x512 : Shape := ⟨2, ![832, 512]⟩
abbrev S832x500 : Shape := ⟨2, ![832, 500]⟩
abbrev S8x104x500 : Shape := ⟨3, ![8, 104, 500]⟩
abbrev S8x100x500 : Shape := ⟨3, ![8, 100, 500]⟩
abbrev S1x8x100x500 : Shape := ⟨4, ![1, 8, 100, 500]⟩

abbrev nBuf : Space → Nat
  | .hbm => 11
  | .vmem => 8
  | .smem => 0
  | _ => 0

abbrev bufTy : (tb : Table) → Fin (tcTables nBuf tb) → BufTy
  | .hbm, ⟨0, _⟩ => ⟨S8x200x512, .f32⟩
  | .hbm, ⟨1, _⟩ => ⟨S8x100x512, .f32⟩
  | .hbm, ⟨2, _⟩ => ⟨S500x512, .f32⟩
  | .hbm, ⟨3, _⟩ => ⟨S500, .f32⟩
  | .hbm, ⟨4, _⟩ => ⟨S_, .i32⟩
  | .hbm, ⟨5, _⟩ => ⟨S_, .f32⟩
  | .hbm, ⟨6, _⟩ => ⟨S8x104x512, .f32⟩
  | .hbm, ⟨7, _⟩ => ⟨S512x500, .f32⟩
  | .hbm, ⟨8, _⟩ => ⟨S512x500, .bf16⟩
  | .hbm, ⟨9, _⟩ => ⟨S1x500, .f32⟩
  | .hbm, ⟨10, _⟩ => ⟨S8x200x100x500, .f32⟩
  | .local _ .vmem, ⟨0, _⟩ => ⟨S1x40x512, .f32⟩
  | .local _ .vmem, ⟨1, _⟩ => ⟨S1x40x512, .f32⟩
  | .local _ .vmem, ⟨2, _⟩ => ⟨S1x104x512, .f32⟩
  | .local _ .vmem, ⟨3, _⟩ => ⟨S1x104x512, .f32⟩
  | .local _ .vmem, ⟨4, _⟩ => ⟨S512x500, .bf16⟩
  | .local _ .vmem, ⟨5, _⟩ => ⟨S1x500, .f32⟩
  | .local _ .vmem, ⟨6, _⟩ => ⟨S1x40x100x500, .f32⟩
  | .local _ .vmem, ⟨7, _⟩ => ⟨S1x40x100x500, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 5], ![false, false]⟩

def k0_mult1 : BitVec 32 :=
  let c0_i32 : BitVec 32 := 0#32
  let c8_i32 : BitVec 32 := 8#32
  let v6 : BitVec 32 := Scalar.muli c0_i32 c8_i32
  v6
def k0_off1 (c0_i32 : BitVec 32) : Fin 3 → Nat :=
  let c0_6 : Index := 0#32
  let c8_i32 : BitVec 32 := 8#32
  let v6 : BitVec 32 := Scalar.muli c0_i32 c8_i32
  let v7 : BitVec 32 := v6
  let v8 : Index := Scalar.indexCast v7
  let c0_7 : Index := 0#32
  ![0, v8.toNat, 0]
def k0_off2 (c0_i32 : BitVec 32) : Fin 4 → Nat :=
  let c0_8 : Index := 0#32
  let c8_i32 : BitVec 32 := 8#32
  let v6 : BitVec 32 := Scalar.muli c0_i32 c8_i32
  let v7 : BitVec 32 := v6
  let v24 : Index := Scalar.indexCast v7
  let c0_9 : Index := 0#32
  let c0_10 : Index := 0#32
  ![0, v24.toNat, 0, 0]
def k0_mult2 : BitVec 32 :=
  let c1_i32 : BitVec 32 := 1#32
  let c8_i32_11 : BitVec 32 := 8#32
  let v28 : BitVec 32 := Scalar.muli c1_i32 c8_i32_11
  v28
def k0_mult3 : BitVec 32 :=
  let c2_i32 : BitVec 32 := 2#32
  let c8_i32_18 : BitVec 32 := 8#32
  let v50 : BitVec 32 := Scalar.muli c2_i32 c8_i32_18
  v50
def k0_mult4 : BitVec 32 :=
  let c3_i32 : BitVec 32 := 3#32
  let c8_i32_25 : BitVec 32 := 8#32
  let v72 : BitVec 32 := Scalar.muli c3_i32 c8_i32_25
  v72
def k0_mult5 : BitVec 32 :=
  let c4_i32 : BitVec 32 := 4#32
  let c8_i32_32 : BitVec 32 := 8#32
  let v94 : BitVec 32 := Scalar.muli c4_i32 c8_i32_32
  v94
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x104x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x500 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x500 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x40x100x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  pads_S8x100x512_S8x104x512_000_040_000 : S8x100x512.Pads (![0, 0, 0] : Fin 3 → Nat) ![0, 4, 0] ![0, 0, 0] S8x104x512
  h_S_ : 0 < S_.numel
  transposes_S500x512_S512x500_1_0 : S500x512.Transposes [1, 0] S512x500
  bitsLt_bf16_f32 : FTy.bits .bf16 < FTy.bits .f32
  shapeCasts_S500_S1x500 : S500.ShapeCasts S1x500
  inb_S512x500_S512x500_0_0 : ∀ a, (![0, 0] : Fin 2 → Nat) a + S512x500.size a ≤ S512x500.size a
  h_S512x500 : 0 < S512x500.numel
  shapeCasts_S512x500_S512x500 : S512x500.ShapeCasts S512x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  inb_S1x104x512_S1x104x512_0_0_0 : ∀ a, (![0, 0, 0] : Fin 3 → Nat) a + S1x104x512.size a ≤ S1x104x512.size a
  h_S1x104x512 : 0 < S1x104x512.numel
  shapeCasts_S1x104x512_S104x512 : S1x104x512.ShapeCasts S104x512
  h_S1x8x512 : 0 < S1x8x512.numel
  shapeCasts_S1x8x512_S8x512 : S1x8x512.ShapeCasts S8x512
  shapeCasts_S8x512_S8x1x512 : S8x512.ShapeCasts S8x1x512
  shapeCasts_S104x512_S1x104x512 : S104x512.ShapeCasts S1x104x512
  broadcasts_S8x1x512_S8x104x512 : S8x1x512.Broadcasts S8x104x512
  broadcasts_S1x104x512_S8x104x512 : S1x104x512.Broadcasts S8x104x512
  shapeCasts_S8x104x512_S832x512 : S8x104x512.ShapeCasts S832x512
  broadcasts_S1x500_S832x500 : S1x500.Broadcasts S832x500
  shapeCasts_S832x500_S8x104x500 : S832x500.ShapeCasts S8x104x500
  slices_S8x104x500_o0_0_0_S8x100x500 : S8x104x500.Slices ![0, 0, 0] S8x100x500
  h_S1x8x100x500 : 0 < S1x8x100x500.numel
  shapeCasts_S1x8x100x500_S8x100x500 : S1x8x100x500.ShapeCasts S8x100x500
  shapeCasts_S8x100x500_S1x8x100x500 : S8x100x500.ShapeCasts S1x8x100x500
  dot_S832x512_S512x500_S832x500_1_0_0_1_n_n_wf : DotDims.WF S832x512 S512x500 S832x500 [1] [0] [0] [1] [] []
  hrank0 : 0 < grid0.rank
  k0_mult1_dvd : 8 ∣ k0_mult1.toNat
  k0_off1_inb : ∀ (r : Fin 5), ∀ a, (k0_off1 (BitVec.ofNat 32 r.val)) a + S1x8x512.size a ≤ S1x40x512.size a
  k0_off2_inb : ∀ (r : Fin 5), ∀ a, (k0_off2 (BitVec.ofNat 32 r.val)) a + S1x8x100x500.size a ≤ S1x40x100x500.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x104x512.size a ≤ S8x104x512.size a
  hwx0_1 : ∀ i : grid0.Coords, EltTy.bits .f32 = 32 ∨ (Rect.block (s := S8x104x512) S1x104x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S512x500.size a
  hwx0_2 : ∀ i : grid0.Coords, EltTy.bits .bf16 = 32 ∨ (Rect.block (s := S512x500) S512x500.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x500.size a ≤ S1x500.size a
  hwx0_3 : ∀ i : grid0.Coords, EltTy.bits .f32 = 32 ∨ (Rect.block (s := S1x500) S1x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x40x100x500.size a ≤ S8x200x100x500.size a
  hwx0_4 : ∀ i : grid0.Coords, EltTy.bits .f32 = 32 ∨ (Rect.block (s := S8x200x100x500) S1x40x100x500.size (cc0_transform_4 i) (hinb0_4 i)).WholeWords (EltTy.packing .f32)

variable [Facts₀]

def dot_S832x512_S512x500_S832x500_1_0_0_1_n_n : DotDims S832x512 S512x500 S832x500 where
  lhsContracting := [1]
  rhsContracting := [0]
  lhsNonContracting := [0]
  rhsNonContracting := [1]
  lhsBatch := []
  rhsBatch := []
  wf := dot_S832x512_S512x500_S832x500_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x104x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x500.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x40x100x500.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x100x512 : Shape := ⟨3, ![8, 100, 512]⟩
abbrev S500x512 : Shape := ⟨2, ![500, 512]⟩
abbrev S500 : Shape := ⟨1, ![500]⟩
abbrev S8x200x1x512 : Shape := ⟨4, ![8, 200, 1, 512]⟩
abbrev S8x1x100x512 : Shape := ⟨4, ![8, 1, 100, 512]⟩
abbrev S8x200x100x512 : Shape := ⟨4, ![8, 200, 100, 512]⟩
abbrev S8x200x100x500 : Shape := ⟨4, ![8, 200, 100, 500]⟩
abbrev S1x1x1x500 : Shape := ⟨4, ![1, 1, 1, 500]⟩

abbrev nBuf : Space → Nat
  | .hbm => 14
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x100x512, .f32⟩
  | .hbm, ⟨2, _⟩ => ⟨S500x512, .f32⟩
  | .hbm, ⟨3, _⟩ => ⟨S500, .f32⟩
  | .hbm, ⟨4, _⟩ => ⟨S8x200x1x512, .f32⟩
  | .hbm, ⟨5, _⟩ => ⟨S8x1x100x512, .f32⟩
  | .hbm, ⟨6, _⟩ => ⟨S8x200x100x512, .f32⟩
  | .hbm, ⟨7, _⟩ => ⟨S8x200x100x512, .f32⟩
  | .hbm, ⟨8, _⟩ => ⟨S8x200x100x512, .f32⟩
  | .hbm, ⟨9, _⟩ => ⟨S8x200x100x512, .f32⟩
  | .hbm, ⟨10, _⟩ => ⟨S8x200x100x500, .f32⟩
  | .hbm, ⟨11, _⟩ => ⟨S1x1x1x500, .f32⟩
  | .hbm, ⟨12, _⟩ => ⟨S8x200x100x500, .f32⟩
  | .hbm, ⟨13, _⟩ => ⟨S8x200x100x500, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S8x200x512_S8x200x1x512_0_1_3 : S8x200x512.BroadcastsInDim S8x200x1x512 (![0, 1, 3] : Fin 3 → Fin S8x200x1x512.rank)
  bcast_S8x100x512_S8x1x100x512_0_2_3 : S8x100x512.BroadcastsInDim S8x1x100x512 (![0, 2, 3] : Fin 3 → Fin S8x1x100x512.rank)
  bcast_S8x200x1x512_S8x200x100x512_0_1_2_3 : S8x200x1x512.BroadcastsInDim S8x200x100x512 (![0, 1, 2, 3] : Fin 4 → Fin S8x200x100x512.rank)
  bcast_S8x1x100x512_S8x200x100x512_0_1_2_3 : S8x1x100x512.BroadcastsInDim S8x200x100x512 (![0, 1, 2, 3] : Fin 4 → Fin S8x200x100x512.rank)
  bcast_S500_S1x1x1x500_3 : S500.BroadcastsInDim S1x1x1x500 (![3] : Fin 1 → Fin S1x1x1x500.rank)
  bcast_S1x1x1x500_S8x200x100x500_0_1_2_3 : S1x1x1x500.BroadcastsInDim S8x200x100x500 (![0, 1, 2, 3] : Fin 4 → Fin S8x200x100x500.rank)
  dot_S8x200x100x512_S500x512_S8x200x100x500_3_1_012_0_n_n_wf : DotDims.WF S8x200x100x512 S500x512 S8x200x100x500 [3] [1] [0, 1, 2] [0] [] []

variable [Facts₀]

def dot_S8x200x100x512_S500x512_S8x200x100x500_3_1_012_0_n_n : DotDims S8x200x100x512 S500x512 S8x200x100x500 where
  lhsContracting := [3]
  rhsContracting := [1]
  lhsNonContracting := [0, 1, 2]
  rhsNonContracting := [0]
  lhsBatch := []
  rhsBatch := []
  wf := dot_S8x200x100x512_S500x512_S8x200x100x500_3_1_012_0_n_n_wf

class Facts : Prop extends Facts₀ where

variable [Facts]
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.JoinerChunk.lean ====
/-
  One sub-chunk of the joiner body, read at an index over the extended reals.

  A grid point of the kernel handles 40 encoder frames of one batch entry in five sub-chunks of 8 frames.
  For a sub-chunk the body takes the 8 encoder rows `e : [1, 8, 512]`, the (padded) decoder rows
  `d : [1, 104, 512]`, the transposed weights `w : [512, 500]` and the bias row `b : [1, 500]`, forms
  `tanh (e[r, ·] + d[u, ·])` for every pair `(r, u)`, flattens the pairs to the 832 rows `r·104 + u` of one
  matrix, multiplies by `w`, adds the bias, un-flattens, and keeps the first 100 decoder rows. So entry
  `(0, r, u, v)` of what it stores is
      ∑ₖ tanh (e[0, r, k] + d[0, u, k]) · w[k, v]  +  b[0, v].
  The body's five stores carry five spellings of this one function (the same operations cut at different
  places); they are identified with the first spelling definitionally.
-/
import proofs.«110745_j70050916598490_1_alg».proof.Proof.Gen.KernelIdeal.Skeleton
import proofs.«110745_j70050916598490_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Joiner

open Cert.KernelIdeal Cert.KernelIdeal.Gen Idealize.ShloMosaic Idealize.ShloMosaic.ValueIdx

/-! ## Layout steps at literal extents -/

section Layout
variable {α : Type}

/-- Row `r·104 + u` of the matrix whose 832 rows are the pairs (encoder row `r`, decoder row `u`). -/
def row (r : Fin 8) (u : Fin 104) : Fin 832 := ⟨r.val * 104 + u.val, by omega⟩

/-- An `[832, C]` matrix re-read as `[8, 104, C]`: entry `(r, u, c)` is row `r·104 + u`, column `c`. -/
theorem split_rows_apply {C : Nat} (x : (⟨2, ![832, C]⟩ : Shape).Idx → α)
    (h : (⟨2, ![832, C]⟩ : Shape).ShapeCasts ⟨3, ![8, 104, C]⟩) (r : Fin 8) (u : Fin 104) (c : Fin C) :
    shapeCast ⟨3, ![8, 104, C]⟩ x h (ix3 r u c) = x (ix2 (row r u) c) :=
  shapeCast_apply x h _ _ (by
    rw [Shape.rowMajor_val_two, Shape.rowMajor_val_three]
    rfl)

/-- An `[8, 104, C]` array flattened to `[832, C]`: row `r·104 + u`, column `c` is entry `(r, u, c)`. -/
theorem merge_rows_apply {C : Nat} (x : (⟨3, ![8, 104, C]⟩ : Shape).Idx → α)
    (h : (⟨3, ![8, 104, C]⟩ : Shape).ShapeCasts ⟨2, ![832, C]⟩) (r : Fin 8) (u : Fin 104) (c : Fin C) :
    shapeCast ⟨2, ![832, C]⟩ x h (ix2 (row r u) c) = x (ix3 r u c) :=
  shapeCast_apply x h _ _ (by
    rw [Shape.rowMajor_val_two, Shape.rowMajor_val_three]
    rfl)

/-- An `[8, C]` matrix given a unit middle axis: entry `(r, z, c)` is `(r, c)`. -/
theorem mid_unit_apply {C : Nat} (x : (⟨2, ![8, C]⟩ : Shape).Idx → α)
    (h : (⟨2, ![8, C]⟩ : Shape).ShapeCasts ⟨3, ![8, 1, C]⟩) (r : Fin 8) (z : Fin 1) (c : Fin C) :
    shapeCast ⟨3, ![8, 1, C]⟩ x h (ix3 r z c) = x (ix2 r c) :=
  shapeCast_apply x h _ _ (by
    have hz : z.val = 0 := by omega
    rw [Shape.rowMajor_val_two, Shape.rowMajor_val_three]
    show r.val * C + c.val = (r.val * 1 + z.val) * C + c.val
    rw [hz, Nat.mul_one, Nat.add_zero])

/-- `[8, 1, C]` repeated along the middle axis to `[8, 104, C]`: entry `(r, u, c)` is `(r, 0, c)`. -/
theorem bcast_mid_apply (x : (⟨3, ![8, 1, 512]⟩ : Shape).Idx → α)
    (h : (⟨3, ![8, 1, 512]⟩ : Shape).Broadcasts ⟨3, ![8, 104, 512]⟩) (r : Fin 8) (u : Fin 104) (c : Fin 512) :
    broadcastTo ⟨3, ![8, 104, 512]⟩ x h (ix3 r u c) = x (ix3 r (0 : Fin 1) c) :=
  broadcastTo_apply x h _ _ (fun a => match a with
    | ⟨0, _⟩ => by show r.val = if (8 : Nat) = 1 then 0 else r.val; rw [if_neg (by decide)]
    | ⟨1, _⟩ => by show 0 = if (1 : Nat) = 1 then 0 else u.val; rw [if_pos rfl]
    | ⟨2, _⟩ => by show c.val = if (512 : Nat) = 1 then 0 else c.val; rw [if_neg (by decide)])

/-- `[1, 104, 512]` repeated along the leading axis to `[8, 104, 512]`: entry `(r, u, c)` is `(0, u, c)`. -/
theorem bcast_lead_apply (x : (⟨3, ![1, 104, 512]⟩ : Shape).Idx → α)
    (h : (⟨3, ![1, 104, 512]⟩ : Shape).Broadcasts ⟨3, ![8, 104, 512]⟩) (r : Fin 8) (u : Fin 104) (c : Fin 512) :
    broadcastTo ⟨3, ![8, 104, 512]⟩ x h (ix3 r u c) = x (ix3 (0 : Fin 1) u c) :=
  broadcastTo_apply x h _ _ (fun a => match a with
    | ⟨0, _⟩ => by show 0 = if (1 : Nat) = 1 then 0 else r.val; rw [if_pos rfl]
    | ⟨1, _⟩ => by show u.val = if (104 : Nat) = 1 then 0 else u.val; rw [if_neg (by decide)]
    | ⟨2, _⟩ => by show c.val = if (512 : Nat) = 1 then 0 else c.val; rw [if_neg (by decide)])

end Layout

/-- Decoder row `u < 100` among the 104 padded rows. -/
def padRow (u : Fin 100) : Fin 104 := ⟨u.val, by omega⟩

/-! ## The sub-chunk at an index -/

/-- Entry `(0, r, u, v)` of a sub-chunk's stored block. -/
theorem chunk_apply (w : Vec Ideal S512x500 .bf16) (b : Vec Ideal S1x500 .f32) (d : Vec Ideal S1x104x512 .f32)
    (e : Vec Ideal S1x8x512 .f32) (z : Fin 1) (r : Fin 8) (u : Fin 100) (v : Fin 500) :
    k0_pay6 (F := Ideal) w b d e (ix4 z r u v)
      = (∑ k : Fin 512, Ideal.tanh (e (ix3 (0 : Fin 1) r k) + d (ix3 (0 : Fin 1) (padRow u) k)) * w (ix2 k v))
        + b (ix2 (0 : Fin 1) v) := by
  unfold k0_pay6 k0_pay5 k0_pay3 k0_pay4
  refine (shapeCast_abc_1abc_apply _ _ z r u v).trans ?_
  refine (slice3_axis1_apply 0 _ _ r u v (padRow u) (Nat.zero_add _).symm).trans ?_
  refine (split_rows_apply _ _ r (padRow u) v).trans ?_
  refine congrArg₂ (· + ·) ?_ ?_
  · refine (LibMatmulNN.matmul_zero_apply 832 512 500 none _ _ (row r (padRow u)) v).trans ?_
    refine Finset.sum_congr rfl fun k _ => ?_
    refine congrArg₂ (· * ·) ?_ ?_
    · refine (truncf_apply (ψ := .bf16) (φ := .f32) _ bitsLt_bf16_f32 _).trans ?_
      refine (merge_rows_apply _ _ r (padRow u) k).trans ?_
      show Ideal.tanh (_ + _) = _
      refine congrArg Ideal.tanh (congrArg₂ (· + ·) ?_ ?_)
      · refine (bcast_mid_apply _ _ r (padRow u) k).trans ?_
        refine (mid_unit_apply _ _ r 0 k).trans ?_
        exact shapeCast_1ab_ab_apply _ _ r k
      · refine (bcast_lead_apply _ _ r (padRow u) k).trans ?_
        refine (shapeCast_ab_1ab_apply _ _ 0 (padRow u) k).trans ?_
        exact shapeCast_1ab_ab_apply _ _ (padRow u) k
    · exact congrFun (shapeCast_self _ _) _
  · refine (broadcastTo_1b_ab_apply _ _ (row r (padRow u)) v).trans ?_
    exact congrFun (shapeCast_self _ _) _

/-! ## The five spellings are one function -/

variable {F : FTy → Type} [FloatOps F]

theorem pay8_eq (w : Vec F S512x500 .bf16) (b : Vec F S1x500 .f32) (d : Vec F S1x104x512 .f32) (e : Vec F S1x8x512 .f32) :
    k0_pay8 (k0_pay3 w) (k0_pay4 b) (k0_pay7 d e) = k0_pay6 w b d e := rfl

theorem pay9_eq (w : Vec F S512x500 .bf16) (b : Vec F S1x500 .f32) (d : Vec F S1x104x512 .f32) (e : Vec F S1x8x512 .f32) :
    k0_pay9 (k0_pay3 w) (k0_pay4 b) (k0_pay5 d) e = k0_pay6 w b d e := rfl

theorem pay1_eq (w : Vec F S512x500 .bf16) (b : Vec F S1x500 .f32) (d : Vec F S1x104x512 .f32) (e : Vec F S1x8x512 .f32) :
    k0_pay1 (k0_pay3 w) (k0_pay4 b) (k0_pay10 (k0_pay5 d)) (k0_pay11 e) = k0_pay6 w b d e := rfl

theorem pay2_eq (w : Vec F S512x500 .bf16) (b : Vec F S1x500 .f32) (d : Vec F S1x104x512 .f32) (e : Vec F S1x8x512 .f32) :
    k0_pay2 (k0_pay3 w) (k0_pay4 b) (k0_pay5 d) e = k0_pay6 w b d e := rfl

end Cert.KernelIdeal.Joiner

end
-- ==== Proof.JoinerBlock.lean ====
/-
  What one grid point leaves in the output's staging buffer, as one function of the point's four input blocks.

  The body writes the `[1, 40, 100, 500]` block in five slabs of 8 encoder frames (frames `8j … 8j + 7`, `j < 5`);
  slab `j` holds the sub-chunk function (JoinerChunk.lean) of encoder rows `8j … 8j + 7` of the point's encoder
  block. So every slab is the restriction of ONE function of the block index `(0, t, u, v)`:
      ∑ₖ tanh (enc[0, t, k] + dec[0, u, k]) · w[k, v]  +  b[0, v],
  and the slabs cover the block, hence the buffer reads that function everywhere.
-/
import proofs.«110745_j70050916598490_1_alg».proof.Proof.Gen.KernelIdeal.Frame
import proofs.«110745_j70050916598490_1_alg».proof.Proof.JoinerChunk
import Idealize.ShloMosaic.Lib.Pipeline.Value
import Idealize.ShloMosaic.Lib.Tactic

set_option maxRecDepth 16384

noncomputable section

open scoped BigOperators

namespace Cert.KernelIdeal.Joiner

open Cert.KernelIdeal Cert.KernelIdeal.Gen Idealize.ShloMosaic Idealize.ShloMosaic.TcCoe Idealize.ShloMosaic.ValueIdx
open Idealize.SL.Sem

/-- Entry `(t, u, v)` of a grid point's block from its encoder block `x0`, padded decoder block `x1`, transposed
    weights `x2` and bias row `x3`. -/
def blockAt (x0 : Vec Ideal S1x40x512 .f32) (x1 : Vec Ideal S1x104x512 .f32) (x2 : Vec Ideal S512x500 .bf16)
    (x3 : Vec Ideal S1x500 .f32) (t : Fin 40) (u : Fin 100) (v : Fin 500) : Ideal .f32 :=
  (∑ k : Fin 512, Ideal.tanh (x0 (ix3 (0 : Fin 1) t k) + x1 (ix3 (0 : Fin 1) (padRow u) k)) * x2 (ix2 k v))
    + x3 (ix2 (0 : Fin 1) v)

/-- The block as a function of its index. -/
def blockFn (x0 : Vec Ideal S1x40x512 .f32) (x1 : Vec Ideal S1x104x512 .f32) (x2 : Vec Ideal S512x500 .bf16)
    (x3 : Vec Ideal S1x500 .f32) : S1x40x100x500.Idx → Ideal .f32 :=
  fun y => blockAt x0 x1 x2 x3 (y 1) (y 2) (y 3)

theorem blockFn_of_coords (x0 : Vec Ideal S1x40x512 .f32) (x1 : Vec Ideal S1x104x512 .f32) (x2 : Vec Ideal S512x500 .bf16)
    (x3 : Vec Ideal S1x500 .f32) (y : S1x40x100x500.Idx) (t : Fin 40) (u : Fin 100) (v : Fin 500)
    (h1 : (y 1).val = t.val) (h2 : (y 2).val = u.val) (h3 : (y 3).val = v.val) :
    blockFn x0 x1 x2 x3 y = blockAt x0 x1 x2 x3 t u v :=
  congr (congr (congrArg (blockAt x0 x1 x2 x3) (Fin.ext h1)) (Fin.ext h2)) (Fin.ext h3)

/-- The slab of frames `o … o + 7`: the sub-chunk function of encoder rows `o … o + 7` is the block function on the
    slab. -/
theorem slab_apply (o : Nat) (ho : o + 8 ≤ 40) (x0 : Vec Ideal S1x40x512 .f32) (x1 : Vec Ideal S1x104x512 .f32)
    (x2 : Vec Ideal S512x500 .bf16) (x3 : Vec Ideal S1x500 .f32)
    (h1 : ∀ a, (![0, o, 0] : Fin 3 → Nat) a + (![1, 8, 512] : Fin 3 → Nat) a ≤ S1x40x512.size a)
    (h2 : ∀ a, (![0, o, 0, 0] : Fin 4 → Nat) a + (![1, 8, 100, 500] : Fin 4 → Nat) a ≤ S1x40x100x500.size a)
    (x : S1x8x100x500.Idx) :
    k0_pay6 (F := Ideal) x2 x3 x1 (View.ld x0 (Rect.unit (s := S1x40x512) ![0, o, 0] ![1, 8, 512] h1)) x
      = blockFn x0 x1 x2 x3 ((Rect.unit (s := S1x40x100x500) ![0, o, 0, 0] ![1, 8, 100, 500] h2).emb x) := by
  obtain ⟨z, r, u, v, rfl⟩ : ∃ (z : Fin 1) (r : Fin 8) (u : Fin 100) (v : Fin 500), x = ix4 z r u v :=
    ⟨x 0, x 1, x 2, x 3, eq_ix4 x⟩
  refine (chunk_apply x2 x3 x1 _ z r u v).trans ?_
  refine Eq.symm ((blockFn_of_coords x0 x1 x2 x3 _ ⟨o + r.val, by omega⟩ u v ?_ ?_ ?_).trans ?_)
  · show o + 1 * r.val = o + r.val
    omega
  · show 0 + 1 * u.val = u.val
    omega
  · show 0 + 1 * v.val = v.val
    omega
  · unfold blockAt
    refine congrArg₂ (· + ·) (Finset.sum_congr rfl fun k _ => ?_) rfl
    refine congrArg₂ (· * ·) (congrArg Ideal.tanh (congrArg₂ (· + ·) ?_ rfl)) rfl
    refine congrArg x0 (funext fun a => Fin.ext ?_)
    match a with
    | ⟨0, _⟩ => show 0 = 0 + 1 * 0; rfl
    | ⟨1, _⟩ => show o + r.val = o + 1 * r.val; omega
    | ⟨2, _⟩ => show k.val = 0 + 1 * k.val; omega

theorem hz2 : (![0, 0] : Fin 2 → Nat) = fun _ => 0 := funext fun a => by fin_cases a <;> rfl
theorem hz3 : (![0, 0, 0] : Fin 3 → Nat) = fun _ => 0 := funext fun a => by fin_cases a <;> rfl

/-- After the body at a grid point the output's staging buffer reads the block function of the point's input blocks. -/
theorem out_apply (c : Dev nD) (i : grid0.Coords) (arg2 : Memref sig .tc .vmem S1x40x512 .f32) (harg2 : arg2.IsWhole) (arg3 : Memref sig .tc .vmem S1x104x512 .f32) (harg3 : arg3.IsWhole) (arg4 : Memref sig .tc .vmem S512x500 .bf16) (harg4 : arg4.IsWhole) (arg5 : Memref sig .tc .vmem S1x500 .f32) (harg5 : arg5.IsWhole) (arg6 : Memref sig .tc .vmem S1x40x100x500 .f32) (harg6 : arg6.IsWhole)
    (x0 : Vec Ideal S1x40x512 .f32) (x1 : Vec Ideal S1x104x512 .f32) (x2 : Vec Ideal S512x500 .bf16) (x3 : Vec Ideal S1x500 .f32)
    (y : S1x40x100x500.Idx) :
    out0_A_4 (F := Ideal) c i arg2 harg2 arg3 harg3 arg4 harg4 arg5 harg5 arg6 harg6 x0 x1 x2 x3 y = blockFn x0 x1 x2 x3 y := by
  unfold out0_A_4
  rw [View.read_writes_eq_canon _ _ _ (cover0_A_4 c i arg2 harg2 arg3 harg3 arg4 harg4 arg5 harg5 arg6 harg6 x0 x1 x2 x3)]
  refine View.canon_apply_of_pieces (blockFn x0 x1 x2 x3) _ ?_ y (cover0_A_4 c i arg2 harg2 arg3 harg3 arg4 harg4 arg5 harg5 arg6 harg6 x0 x1 x2 x3 y)
  unfold kernelRun0_A
  dsimp only
  sl_unfold_words
  simp only [View.readAt_eq_ld, harg2.read_unread, harg3.read_unread, harg4.read_unread, harg5.read_unread,
    View.ld_unit_zero (S := S512x500) hz2, View.ld_unit_zero (S := S1x500) hz2, View.ld_unit_zero (S := S1x104x512) hz3]
  intro p hp
  simp only [List.mem_cons, List.not_mem_nil, or_false] at hp
  rcases hp with rfl | rfl | rfl | rfl | rfl
  · intro x; exact (congrFun (pay2_eq x2 x3 x1 _) x).trans (slab_apply 32 (by omega) x0 x1 x2 x3 (by decide) (by decide) x)
  · intro x; exact (congrFun (pay1_eq x2 x3 x1 _) x).trans (slab_apply 24 (by omega) x0 x1 x2 x3 (by decide) (by decide) x)
  · intro x; exact (congrFun (pay9_eq x2 x3 x1 _) x).trans (slab_apply 16 (by omega) x0 x1 x2 x3 (by decide) (by decide) x)
  · intro x; exact (congrFun (pay8_eq x2 x3 x1 _) x).trans (slab_apply 8 (by omega) x0 x1 x2 x3 (by decide) (by decide) x)
  · intro x; exact slab_apply 0 (by omega) x0 x1 x2 x3 (by decide) (by decide) x

end Cert.KernelIdeal.Joiner

end
-- ==== Proof.JoinerHost.lean ====
/-
  The three arrays the host prepares before the kernel region, read at an index of the argument arrays.

  Before the region @main pads the decoder rows from 100 to 104 per batch entry (zeros after row 99), transposes
  the weights `W : [500, 512]` to `[512, 500]` (the change of float format that follows is the identity over the
  extended reals), and reshapes the bias `b : [500]` to one row `[1, 500]`. Inside the first 100 rows the padded
  decoder array is the decoder array; the transposed weights at `(k, v)` are `W[v, k]`; the bias row at `(0, v)`
  is `b[v]`.
-/
import proofs.«110745_j70050916598490_1_alg».proof.Proof.Gen.KernelIdeal.Frame
import proofs.«110745_j70050916598490_1_alg».proof.Proof.JoinerChunk
import Idealize.ShloMosaic.Lib.Pipeline.Value
import Idealize.ShloMosaic.Lib.ValueLayout
import Idealize.ShloMosaic.Lib.KernelVsHost
import Idealize.ShloMosaic.Lib.StableHlo.Run
import Idealize.ShloMosaic.Lib.Tactic
import Idealize.ShloMosaic.PureOps.Ideal

set_option maxRecDepth 16384

noncomputable section

namespace Cert.KernelIdeal.Joiner

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The padded decoder array as the region finds it. -/
theorem V_dec_eq (c : Dev nD) :
    (V m c main_v0 : S8x104x512.Idx → Ideal .f32)
      = pad S8x104x512 ![0, 0, 0] ![0, 4, 0] ![0, 0, 0] (m ((c : Thread nD τ).loc main_arg1))
          (sitofp (F := Ideal) .f32 (constantI S_ 32 0#32)) pads_S8x100x512_S8x104x512_000_040_000 h_S_ := by
  dsimp only [V]
  simp only [hostOps0, hostOps0_1, hostOps0_2, List.flatten_cons, List.flatten_nil, List.append_nil, List.cons_append,
    List.nil_append]
  after_results
  rfl

/-- Row `u < 100` of the padded decoder array is the decoder's row `u`. -/
theorem V_dec (c : Dev nD) (n : Fin 8) (u : Fin 100) (k : Fin 512) :
    (V m c main_v0 : S8x104x512.Idx → Ideal .f32) (ix3 n (padRow u) k)
      = (m ((c : Thread nD τ).loc main_arg1) : S8x100x512.Idx → Ideal .f32) (ix3 n u k) := by
  rw [V_dec_eq]
  refine pad_apply_of_inside _ _ _ _ _ _ _ _ (ix3 n u k) (fun a => ?_)
  match a with
  | ⟨0, _⟩ => show n.val = 0 + n.val * (0 + 1); omega
  | ⟨1, _⟩ => show u.val = 0 + u.val * (0 + 1); omega
  | ⟨2, _⟩ => show k.val = 0 + k.val * (0 + 1); omega

/-- The transposed weights as the region finds them. -/
theorem V_wt_eq (c : Dev nD) :
    (V m c main_v2 : S512x500.Idx → Ideal .bf16)
      = (truncf (F := Ideal) .bf16 (transpose S512x500 [1, 0]
          (m ((c : Thread nD τ).loc main_arg2) : S500x512.Idx → Ideal .f32) transposes_S500x512_S512x500_1_0)
          bitsLt_bf16_f32 : S512x500.Idx → Ideal .bf16) := by
  dsimp only [V]
  simp only [hostOps0, hostOps0_1, hostOps0_2, List.flatten_cons, List.flatten_nil, List.append_nil, List.cons_append,
    List.nil_append]
  after_results

/-- Entry `(k, v)` of the transposed weights is `W[v, k]`. -/
theorem V_wt (c : Dev nD) (k : Fin 512) (v : Fin 500) :
    (V m c main_v2 : S512x500.Idx → Ideal .bf16) (ix2 k v)
      = (m ((c : Thread nD τ).loc main_arg2) : S500x512.Idx → Ideal .f32) (ix2 v k) := by
  rw [V_wt_eq]
  exact transpose_ix2_apply _ _ k v

/-- The bias row as the region finds it. -/
theorem V_bias_eq (c : Dev nD) :
    (V m c main_v3 : S1x500.Idx → Ideal .f32)
      = shapeCast S1x500 (m ((c : Thread nD τ).loc main_arg3)) shapeCasts_S500_S1x500 := by
  dsimp only [V]
  simp only [hostOps0, hostOps0_1, hostOps0_2, List.flatten_cons, List.flatten_nil, List.append_nil, List.cons_append,
    List.nil_append]
  after_results
  rfl

/-- Entry `(0, v)` of the bias row is `b[v]`. -/
theorem V_bias (c : Dev nD) (z : Fin 1) (v : Fin 500) :
    (V m c main_v3 : S1x500.Idx → Ideal .f32) (ix2 z v)
      = (m ((c : Thread nD τ).loc main_arg3) : S500.Idx → Ideal .f32) (ix1 v) := by
  rw [V_bias_eq]
  exact shapeCast_a_1a_apply _ _ z v

end Cert.KernelIdeal.Joiner

end
-- ==== Proof.JoinerSpec.lean ====
/-
  The joiner as one function of its four argument arrays, over the extended reals.

  For a batch entry `n`, encoder frame `t`, decoder position `u` and output class `v`,
      out[n, t, u, v] = ∑ₖ tanh (enc[n, t, k] + dec[n, u, k]) · W[v, k]  +  b[v],
  the sum over the 512 hidden coordinates. Both programs compute exactly this term: no law of arithmetic joins
  them, only the bookkeeping of where each program keeps each entry, so finiteness of the inputs is never used.
-/
import Idealize.ShloMosaic.PureOps.Ideal
import Idealize.ShloMosaic.Lib.ValueIdx

noncomputable section

open scoped BigOperators

namespace JoinerSpec

open Idealize.ShloMosaic Idealize.ShloMosaic.ValueIdx

/-- Entry `(n, t, u, v)` of the joiner's output. -/
def joinerAt (enc : FVec Ideal ⟨3, ![8, 200, 512]⟩ .f32) (dec : FVec Ideal ⟨3, ![8, 100, 512]⟩ .f32)
    (W : FVec Ideal ⟨2, ![500, 512]⟩ .f32) (b : FVec Ideal ⟨1, ![500]⟩ .f32)
    (n : Fin 8) (t : Fin 200) (u : Fin 100) (v : Fin 500) : Ideal .f32 :=
  (∑ k : Fin 512, Ideal.tanh (enc (ix3 n t k) + dec (ix3 n u k)) * W (ix2 v k)) + b (ix1 v)

/-- The joiner's output array. -/
def joiner (enc : FVec Ideal ⟨3, ![8, 200, 512]⟩ .f32) (dec : FVec Ideal ⟨3, ![8, 100, 512]⟩ .f32)
    (W : FVec Ideal ⟨2, ![500, 512]⟩ .f32) (b : FVec Ideal ⟨1, ![500]⟩ .f32) :
    FVec Ideal ⟨4, ![8, 200, 100, 500]⟩ .f32 :=
  fun i => joinerAt enc dec W b (i 0) (i 1) (i 2) (i 3)

/-- The output at an index whose four coordinates are known as numbers. -/
theorem joiner_of_coords (enc : FVec Ideal ⟨3, ![8, 200, 512]⟩ .f32) (dec : FVec Ideal ⟨3, ![8, 100, 512]⟩ .f32)
    (W : FVec Ideal ⟨2, ![500, 512]⟩ .f32) (b : FVec Ideal ⟨1, ![500]⟩ .f32)
    (i : (⟨4, ![8, 200, 100, 500]⟩ : Shape).Idx) (n : Fin 8) (t : Fin 200) (u : Fin 100) (v : Fin 500)
    (h0 : (i 0).val = n.val) (h1 : (i 1).val = t.val) (h2 : (i 2).val = u.val) (h3 : (i 3).val = v.val) :
    joiner enc dec W b i = joinerAt enc dec W b n t u v :=
  congr (congr (congr (congrArg (joinerAt enc dec W b) (Fin.ext h0)) (Fin.ext h1)) (Fin.ext h2)) (Fin.ext h3)

end JoinerSpec

end
-- ==== Proof.JoinerKernelValue.lean ====
/-
  The kernel's result array is the joiner function of the argument arrays.

  The grid has 8 × 5 points; point `(n, tb)` stages frames `40·tb … 40·tb + 39` of batch entry `n` of the encoder
  array, all 104 padded decoder rows of entry `n`, the whole transposed weights and the bias row, and writes back
  block `(n, tb, 0, 0)` of the `[8, 200, 100, 500]` result, of extents `[1, 40, 100, 500]`. Reading each staged block
  where it sits in its array turns the block function (JoinerBlock.lean) into the joiner function at the array
  index under the block; the 40 blocks tile the result array, so the array ends holding the joiner function.
-/
import proofs.«110745_j70050916598490_1_alg».proof.Proof.Gen.KernelIdeal.Value
import proofs.«110745_j70050916598490_1_alg».proof.Proof.JoinerBlock
import proofs.«110745_j70050916598490_1_alg».proof.Proof.JoinerHost
import proofs.«110745_j70050916598490_1_alg».proof.Proof.JoinerSpec
import Idealize.ShloMosaic.Lib.Pipeline.Value

set_option maxRecDepth 16384

noncomputable section

open scoped BigOperators

namespace Cert.KernelIdeal.Joiner

open Cert.KernelIdeal Cert.KernelIdeal.Gen Idealize.ShloMosaic Idealize.ShloMosaic.TcCoe Idealize.ShloMosaic.ValueIdx
open Idealize.SL.Sem JoinerSpec
open Idealize.ShloMosaic.Pipeline (Dat)

variable (m : (ℓ : Loc nD τ sig) → Buf (Elt Ideal) ℓ) (ρ : Dev nD → PrngReg)

/-- The block function on blocks that hold the right entries of the four arrays is the joiner function. -/
theorem blockAt_eq_joinerAt (enc : FVec Ideal ⟨3, ![8, 200, 512]⟩ .f32) (dec : FVec Ideal ⟨3, ![8, 100, 512]⟩ .f32)
    (W : FVec Ideal ⟨2, ![500, 512]⟩ .f32) (b : FVec Ideal ⟨1, ![500]⟩ .f32)
    (x0 : Vec Ideal S1x40x512 .f32) (x1 : Vec Ideal S1x104x512 .f32) (x2 : Vec Ideal S512x500 .bf16)
    (x3 : Vec Ideal S1x500 .f32) (n : Fin 8) (t : Fin 40) (T : Fin 200) (u : Fin 100) (v : Fin 500)
    (h0 : ∀ k : Fin 512, x0 (ix3 (0 : Fin 1) t k) = enc (ix3 n T k))
    (h1 : ∀ k : Fin 512, x1 (ix3 (0 : Fin 1) (padRow u) k) = dec (ix3 n u k))
    (h2 : ∀ k : Fin 512, x2 (ix2 k v) = W (ix2 v k))
    (h3 : x3 (ix2 (0 : Fin 1) v) = b (ix1 v)) :
    blockAt x0 x1 x2 x3 t u v = joinerAt enc dec W b n T u v := by
  unfold blockAt joinerAt
  rw [h3]
  refine congrArg (· + b (ix1 v)) (Finset.sum_congr rfl fun k _ => ?_)
  rw [h0 k, h1 k, h2 k]

/-- The printed index maps over the 40 grid points: the encoder and result blocks move with both grid axes, the
    decoder block with the batch axis only, the weights and the bias stay put. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (2 : Fin 4) = 0 ∧ win0_4.index t (3 : Fin 4) = 0
    ∧ win0_4.index t (0 : Fin 4) ≤ 7 ∧ win0_4.index t (1 : Fin 4) ≤ 4 :=
  (by decide +kernel : ∀ t : Fin grid0.N, _)

/-- Every block of the result array is some point's. -/
theorem idx_onto : ∀ (q0 : Fin 8) (q1 : Fin 5), ∃ t : Fin cfg0.N, win0_4.index t = ![q0.val, q1.val, 0, 0] :=
  (by decide +kernel : ∀ (q0 : Fin 8) (q1 : Fin 5), ∃ t : Fin grid0.N, win0_4.index t = ![q0.val, q1.val, 0, 0])

/-! ## The staged blocks, read where they sit in their arrays -/

/-- Row `t'` of the encoder block at a point in block column `(n, tb)` is frame `40·tb + t'` of entry `n`. -/
theorem enc_blk (c : Dev nD) (t : Fin cfg0.N) (n : Fin 8) (tb : Fin 5) (hn : win0_4.index t (0 : Fin 4) = n.val)
    (htb : win0_4.index t (1 : Fin 4) = tb.val) (t' : Fin 40) (T : Fin 200) (hT : T.val = tb.val * 40 + t'.val) (k : Fin 512) :
    (iblk m c 0 t : S1x40x512.Idx → Ideal .f32) (ix3 (0 : Fin 1) t' k)
      = (m ((c : Thread nD τ).loc main_arg0) : S8x200x512.Idx → Ideal .f32) (ix3 n T k) := by
  obtain ⟨e0, e1, e2, -⟩ := idx_facts t
  show V m c main_arg0 (((cfg0.win 0).blk t).view.emb (ix3 (0 : Fin 1) t' k)) = _
  rw [V_main_arg0]
  refine congrArg _ (funext fun a => Fin.ext ?_)
  match a with
  | ⟨0, _⟩ => show win0_0.index t (0 : Fin 3) * 1 + 1 * 0 = n.val; omega
  | ⟨1, _⟩ => show win0_0.index t (1 : Fin 3) * 40 + 1 * t'.val = T.val; omega
  | ⟨2, _⟩ => show win0_0.index t (2 : Fin 3) * 512 + 1 * k.val = k.val; omega

/-- Row `u < 100` of the decoder block at a point of batch entry `n` is the decoder's row `u` of entry `n`. -/
theorem dec_blk (c : Dev nD) (t : Fin cfg0.N) (n : Fin 8) (hn : win0_4.index t (0 : Fin 4) = n.val) (u : Fin 100) (k : Fin 512) :
    (iblk m c 1 t : S1x104x512.Idx → Ideal .f32) (ix3 (0 : Fin 1) (padRow u) k)
      = (m ((c : Thread nD τ).loc main_arg1) : S8x100x512.Idx → Ideal .f32) (ix3 n u k) := by
  obtain ⟨-, -, -, e3, e4, e5, -⟩ := idx_facts t
  show V m c main_v0 (((cfg0.win 1).blk t).view.emb (ix3 (0 : Fin 1) (padRow u) k)) = _
  have hi : ((cfg0.win 1).blk t).view.emb (ix3 (0 : Fin 1) (padRow u) k) = ix3 n (padRow u) k := by
    funext a; apply Fin.ext
    match a with
    | ⟨0, _⟩ => show win0_1.index t (0 : Fin 3) * 1 + 1 * 0 = n.val; omega
    | ⟨1, _⟩ => show win0_1.index t (1 : Fin 3) * 104 + 1 * u.val = u.val; omega
    | ⟨2, _⟩ => show win0_1.index t (2 : Fin 3) * 512 + 1 * k.val = k.val; omega
  rw [hi]
  exact V_dec m c n u k

/-- The weights block is the whole transposed weights. -/
theorem wt_blk (c : Dev nD) (t : Fin cfg0.N) (k : Fin 512) (v : Fin 500) :
    (iblk m c 2 t : S512x500.Idx → Ideal .bf16) (ix2 k v)
      = (m ((c : Thread nD τ).loc main_arg2) : S500x512.Idx → Ideal .f32) (ix2 v k) := by
  obtain ⟨-, -, -, -, -, -, e6, e7, -⟩ := idx_facts t
  show V m c main_v2 (((cfg0.win 2).blk t).view.emb (ix2 k v)) = _
  have hi : ((cfg0.win 2).blk t).view.emb (ix2 k v) = ix2 k v := by
    funext a; apply Fin.ext
    match a with
    | ⟨0, _⟩ => show win0_2.index t (0 : Fin 2) * 512 + 1 * k.val = k.val; omega
    | ⟨1, _⟩ => show win0_2.index t (1 : Fin 2) * 500 + 1 * v.val = v.val; omega
  rw [hi]
  exact V_wt m c k v

/-- The bias block is the whole bias row. -/
theorem bias_blk (c : Dev nD) (t : Fin cfg0.N) (v : Fin 500) :
    (iblk m c 3 t : S1x500.Idx → Ideal .f32) (ix2 (0 : Fin 1) v)
      = (m ((c : Thread nD τ).loc main_arg3) : S500.Idx → Ideal .f32) (ix1 v) := by
  obtain ⟨-, -, -, -, -, -, -, -, e8, e9, -⟩ := idx_facts t
  show V m c main_v3 (((cfg0.win 3).blk t).view.emb (ix2 (0 : Fin 1) v)) = _
  have hi : ((cfg0.win 3).blk t).view.emb (ix2 (0 : Fin 1) v) = ix2 (0 : Fin 1) v := by
    funext a; apply Fin.ext
    match a with
    | ⟨0, _⟩ => show win0_3.index t (0 : Fin 2) * 1 + 1 * 0 = 0; omega
    | ⟨1, _⟩ => show win0_3.index t (1 : Fin 2) * 500 + 1 * v.val = v.val; omega
  rw [hi]
  exact V_bias m c 0 v

/-! ## What a point writes back, and the array after the run -/

/-- The joiner function of the argument arrays on core `c`. -/
abbrev result (c : Dev nD) : S8x200x100x500.Idx → Ideal .f32 :=
  joiner (m ((c : Thread nD τ).loc main_arg0)) (m ((c : Thread nD τ).loc main_arg1))
    (m ((c : Thread nD τ).loc main_arg2)) (m ((c : Thread nD τ).loc main_arg3))

/-- The block function of the point's staged blocks, at a block index, is the joiner function at the array index
    under it. -/
theorem block_result (c : Dev nD) (t : Fin cfg0.N) (j : S1x40x100x500.Idx) :
    blockFn (iblk m c 0 t) (iblk m c 1 t) (iblk m c 2 t) (iblk m c 3 t) j
      = result m c (((cfg0.win 4).blk t).view.emb j) := by
  obtain ⟨-, -, -, -, -, -, -, -, -, -, e10, e11, e12, e13⟩ := idx_facts t
  have hj1 : (j 1).val < 40 := (j 1).isLt
  have hj2 : (j 2).val < 100 := (j 2).isLt
  have hj3 : (j 3).val < 500 := (j 3).isLt
  have hj0 : (j 0).val < 1 := (j 0).isLt
  let n : Fin 8 := ⟨win0_4.index t (0 : Fin 4), by omega⟩
  let tb : Fin 5 := ⟨win0_4.index t (1 : Fin 4), by omega⟩
  let T : Fin 200 := ⟨tb.val * 40 + (j 1).val, by have := tb.isLt; omega⟩
  refine Eq.trans ?_ (joiner_of_coords _ _ _ _ (((cfg0.win 4).blk t).view.emb j) n T (j 2) (j 3) ?_ ?_ ?_ ?_).symm
  · exact blockAt_eq_joinerAt _ _ _ _ (iblk m c 0 t) (iblk m c 1 t) (iblk m c 2 t) (iblk m c 3 t) n (j 1) T (j 2) (j 3)
      (fun k => enc_blk m c t n tb rfl rfl (j 1) T rfl k) (fun k => dec_blk m c t n rfl (j 2) k)
      (fun k => wt_blk m c t k (j 3)) (bias_blk m c t (j 3))
  · show win0_4.index t (0 : Fin 4) * 1 + 1 * (j 0).val = win0_4.index t (0 : Fin 4); omega
  · show win0_4.index t (1 : Fin 4) * 40 + 1 * (j 1).val = win0_4.index t (1 : Fin 4) * 40 + (j 1).val; omega
  · show win0_4.index t (2 : Fin 4) * 100 + 1 * (j 2).val = (j 2).val; omega
  · show win0_4.index t (3 : Fin 4) * 500 + 1 * (j 3).val = (j 3).val; omega

/-- What point `t` writes back is block `t` of the joiner function of the argument arrays. -/
theorem flushed_eq (c : Dev nD) (t : Fin cfg0.N) :
    (dats m 0 c).flushed 4 t = ((cfg0.win 4).blk t).view.read (Elt Ideal) (result m c) := by
  rw [Value.flushed4_A]
  funext j
  show out0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) j
    = result m c (((cfg0.win 4).blk t).view.emb j)
  exact (out_apply c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) j).trans
    (block_result m c t j)

/-- An index of the result array is in point `t`'s block iff each coordinate is in the block's range on its axis. -/
theorem mem_blk (t : Fin cfg0.N) (i : S8x200x100x500.Idx) :
    i ∈ ((cfg0.win 4).blk t).view.set ↔ ∀ a : Fin 4, win0_4.index t a * S1x40x100x500.size a ≤ (i a).val
      ∧ (i a).val < win0_4.index t a * S1x40x100x500.size a + S1x40x100x500.size a := by
  show i ∈ ((View.whole main_v4).slice (win0_4.rect t)).set ↔ _
  rw [View.set_slice_whole, Rect.mem_set_unit]
  exact Iff.rfl

/-- The 40 blocks cover the result array: the point whose block holds frame `T` of entry `n` is `(n, T / 40)`. -/
theorem cover (i : S8x200x100x500.Idx) :
    ∃ t : Fin cfg0.N, (cfg0.win 4).flush t = true ∧ i ∈ ((cfg0.win 4).blk t).view.set := by
  have hi0 : (i 0).val < 8 := (i 0).isLt
  have hi1 : (i 1).val < 200 := (i 1).isLt
  have hi2 : (i 2).val < 100 := (i 2).isLt
  have hi3 : (i 3).val < 500 := (i 3).isLt
  obtain ⟨t, ht⟩ := idx_onto ⟨(i 0).val, hi0⟩ ⟨(i 1).val / 40, by omega⟩
  have q0 : win0_4.index t (0 : Fin 4) = (i 0).val := congrFun ht 0
  have q1 : win0_4.index t (1 : Fin 4) = (i 1).val / 40 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 40 ≤ (i 1).val ∧ (i 1).val < win0_4.index t (1 : Fin 4) * 40 + 40; omega
  | ⟨2, _⟩ => show win0_4.index t (2 : Fin 4) * 100 ≤ (i 2).val ∧ (i 2).val < win0_4.index t (2 : Fin 4) * 100 + 100; omega
  | ⟨3, _⟩ => show win0_4.index t (3 : Fin 4) * 500 ≤ (i 3).val ∧ (i 3).val < win0_4.index t (3 : Fin 4) * 500 + 500; omega

/-- The result array after the run is the joiner function of the argument arrays. -/
theorem final (c : Dev nD) : (dats m 0 c).arrAt 4 cfg0.N = result m c :=
  (dats m 0 c).arrAt_eq_of_cover 4 (result m c) (fun t _ => flushed_eq m c t) (cover)

/-- The kernel's run: it ends with the result array at the joiner function and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Joiner

end
-- ==== Proof.JoinerRef.lean ====
/-
  The reference program's result is the joiner function.

  The reference broadcasts the encoder frames over the decoder axis and the decoder rows over the frame axis, adds,
  applies tanh, contracts the hidden axis against `W`'s second axis, and adds the broadcast bias. Read at an index
  `(n, t, u, v)`, each broadcast only selects coordinates, and the contraction is the sum over the hidden coordinate.
-/
import proofs.«110745_j70050916598490_1_alg».proof.Proof.Gen.ReferenceIdeal.Read
import proofs.«110745_j70050916598490_1_alg».proof.Proof.JoinerSpec

noncomputable section

open scoped BigOperators

namespace Cert.ReferenceIdeal.JoinerRef

open Cert.ReferenceIdeal Cert.ReferenceIdeal.Read Idealize.ShloMosaic Idealize.ShloMosaic.ValueIdx JoinerSpec

/-- The encoder entry the contraction reads at output index `i` and hidden coordinate `k`. -/
theorem enc_idx (i : S8x200x100x500.Idx) (k : Fin 512) :
    idx_main_v0 (idx_main_v2 (lidx_main_v6 i k)) = ix3 (i 0) (i 1) k :=
  funext fun a => Fin.ext (by match a with | ⟨0, _⟩ => rfl | ⟨1, _⟩ => rfl | ⟨2, _⟩ => rfl)

/-- The decoder entry it reads. -/
theorem dec_idx (i : S8x200x100x500.Idx) (k : Fin 512) :
    idx_main_v1 (idx_main_v3 (lidx_main_v6 i k)) = ix3 (i 0) (i 2) k :=
  funext fun a => Fin.ext (by match a with | ⟨0, _⟩ => rfl | ⟨1, _⟩ => rfl | ⟨2, _⟩ => rfl)

/-- The weight entry it reads. -/
theorem w_idx (i : S8x200x100x500.Idx) (k : Fin 512) : ridx_main_v6 i k = ix2 (i 3) k :=
  funext fun a => Fin.ext (by match a with | ⟨0, _⟩ => rfl | ⟨1, _⟩ => rfl)

/-- The bias entry added at output index `i`. -/
theorem b_idx (i : S8x200x100x500.Idx) : idx_main_v7 (idx_main_v8 i) = ix1 (i 3) :=
  funext fun a => Fin.ext (by match a with | ⟨0, _⟩ => rfl)

/-- The reference's last stage, as a function of the four arguments, is the joiner. -/
theorem ref_eq (x0 : FVec Ideal S8x200x512 .f32) (x1 : FVec Ideal S8x100x512 .f32) (x2 : FVec Ideal S500x512 .f32)
    (x3 : FVec Ideal S500 .f32) : val_main_v9 (F := Ideal) x0 x1 x2 x3 = joiner x0 x1 x2 x3 := by
  funext i
  rw [val_main_v9_apply, val_main_v6_apply, val_main_v8_apply, val_main_v7_apply]
  simp only [val_main_v5_apply, val_main_v4_apply, val_main_v2_apply, val_main_v3_apply, val_main_v0_apply,
    val_main_v1_apply, enc_idx, dec_idx, w_idx, b_idx, Ideal.addf_def, Ideal.hostUnary_tanh_def]
  rfl

end Cert.ReferenceIdeal.JoinerRef

end
-- ==== Proof.lean ====
/-
  The joiner kernel against its reference, over the extended reals.

  Both programs compute, for batch entry `n`, encoder frame `t`, decoder position `u` and class `v`,
      out[n, t, u, v] = ∑ₖ tanh (enc[n, t, k] + dec[n, u, k]) · W[v, k]  +  b[v]      (k over the 512 hidden coordinates).
  The kernel reaches it block by block: a grid of 8 × 5 points, each writing a `[1, 40, 100, 500]` block in five
  slabs of 8 frames, every slab one matrix product of the 832 (frame, padded decoder row) pairs against the
  transposed weights, the four padding rows dropped before the store (JoinerChunk, JoinerBlock, JoinerHost,
  JoinerKernelValue). The reference reaches it by broadcasts and one contraction (JoinerRef). The two terms are the
  same term (JoinerSpec), so the results are equal entry by entry; no law of arithmetic is needed and the
  finiteness of the inputs is not used. The kernel's idealization rewrites nothing, so there is nothing to preserve.
-/
import proofs.«110745_j70050916598490_1_alg».proof.Defs
import proofs.«110745_j70050916598490_1_alg».proof.Proof.Gen.Kernel
import proofs.«110745_j70050916598490_1_alg».proof.Proof.Gen.Kernel.Frame
import proofs.«110745_j70050916598490_1_alg».proof.Proof.Gen.KernelIdeal
import proofs.«110745_j70050916598490_1_alg».proof.Proof.Gen.KernelIdeal.Frame
import proofs.«110745_j70050916598490_1_alg».proof.Proof.Gen.KernelIdeal.Value
import proofs.«110745_j70050916598490_1_alg».proof.Proof.Gen.ReferenceIdeal
import proofs.«110745_j70050916598490_1_alg».proof.Proof.Gen.ReferenceIdeal.Run
import proofs.«110745_j70050916598490_1_alg».proof.Proof.Gen.ReferenceIdeal.Read
import proofs.«110745_j70050916598490_1_alg».proof.Proof.Gen.Pre_finite_inputs
import proofs.«110745_j70050916598490_1_alg».proof.Proof.JoinerKernelValue
import proofs.«110745_j70050916598490_1_alg».proof.Proof.JoinerRef

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the joiner function of those arguments
    in their result arrays. -/
theorem algebraic : Cert.algebraic_KernelIdeal_ReferenceIdeal := by
  intro m ρ m' ρ' _ hagree
  refine ⟨fun c => Cert.KernelIdeal.Joiner.result m c, Cert.KernelIdeal.Joiner.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.JoinerRef.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
